-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel

variable [Facts]

def fn {F : FTy → Type} [FloatOps F] (main_arg0 : FVec F S4x4096x2048 .f32) (main_arg1 : FVec F S4x4096x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S4x4096x2048 .f32 := Host.absf main_arg1
  let main_cst_0 : FVec F S_ .f32 := constant S_ .f32 0x7F800000#32
  let main_v5 : FVec F S4x4096x2048 .f32 := broadcastInDim S4x4096x2048 ![] bcast_S_S4x4096x2048 main_cst_0
  let main_v6 : IVec S4x4096x2048 1 := cmpf .olt main_v4 main_v5
  let main_c_1 : IVec S_ 1 := constantI S_ 1 1#1
  let main_v7 : IVec S_ 1 := (fun x v => Host.reduce IntOp.andi x v reducesTo_S4x4096x2048_S_d0_1_2 h_S_) main_v6 main_c_1
  let main_v8 : IVec S_ 1 := andi main_v3 main_v7
  main_v8
-- ==== Kernel.lean ====
abbrev S4x4096x2048 : Shape := ⟨3, ![4, 4096, 2048]⟩
abbrev S16384x2048 : Shape := ⟨2, ![16384, 2048]⟩
abbrev S512x2048 : Shape := ⟨2, ![512, 2048]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S16384x2048, .f32⟩
  | .hbm, ⟨3, _⟩ => ⟨S16384x2048, .f32⟩
  | .hbm, ⟨4, _⟩ => ⟨S16384x2048, .f32⟩
  | .hbm, ⟨5, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  reduces_S512x2048_S512 : S512x2048.Reduces [1] S512
  shapeCasts_S512_S512x1 : S512.ShapeCasts S512x1
  broadcasts_S512x1_S512x2048 : S512x1.Broadcasts S512x2048
  shapeCasts_S16384x2048_S4x4096x2048 : S16384x2048.ShapeCasts S4x4096x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S16384x2048.size a
  hwx0_1 : ∀ i : grid0.Coords, EltTy.bits .f32 = 32 ∨ (Rect.block (s := S16384x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

abbrev win0_0 : Pipeline.Window sig grid0 :=
  Pipeline.Window.ofSpec (Memref.whole main_v0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x4096x2048, .f32⟩
  | .hbm, ⟨2, _⟩ => ⟨S4x4096x2048, .f32⟩
  | .hbm, ⟨3, _⟩ => ⟨S_, .f32⟩
  | .hbm, ⟨4, _⟩ => ⟨S4x4096, .f32⟩
  | .hbm, ⟨5, _⟩ => ⟨S4x4096x1, .f32⟩
  | .hbm, ⟨6, _⟩ => ⟨S_, .f32⟩
  | .hbm, ⟨7, _⟩ => ⟨S4x4096x1, .f32⟩
  | .hbm, ⟨8, _⟩ => ⟨S4x4096x1, .f32⟩
  | .hbm, ⟨9, _⟩ => ⟨S_, .f32⟩
  | .hbm, ⟨10, _⟩ => ⟨S4x4096x1, .f32⟩
  | .hbm, ⟨11, _⟩ => ⟨S4x4096x1, .f32⟩
  | .hbm, ⟨12, _⟩ => ⟨S4x4096x1, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  reducesTo_S4x4096x2048_S4x4096_d2 : S4x4096x2048.ReducesTo [2] S4x4096
  h_S_ : 0 < S_.numel
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x2048_0_1_2 : S4x4096x1.BroadcastsInDim S4x4096x2048 (![0, 1, 2] : Fin 3 → Fin S4x4096x2048.rank)

variable [Facts₀]

class Facts : Prop extends Facts₀ where

variable [Facts]
-- ==== Proof.LibKeepdims.lean ====
/-
  Three index readings that every row-normalising body meets: a vector `[a]` viewed as a column `[a, 1]`,
  a column `[a, 1]` broadcast along the rows of `[a, b]`, and a sum over the second axis of `[a, b]` read at
  row `p` as the plain sum over the row's entries.
-/
import Idealize.ShloMosaic.Lib.ValueIdx
import Idealize.ShloMosaic.Lib.Pipeline.Value
import Idealize.ShloMosaic.PureOps.Ideal.Laws

noncomputable section

namespace Cert.LibKeepdims

open Idealize.ShloMosaic Idealize.ShloMosaic.ValueIdx

variable {α : Type}

/-- An `[a]` array cast to the column `[a, 1]` reads, at `(i, u)`, the operand at `i`, whatever the unit
    coordinate `u`: both indices have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum over the second axis of an `[a, b]` vector, read at row `p`, is the sum
    of the row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  refine Finset.sum_congr rfl fun k _ => congrArg v (funext fun d => Fin.ext ?_)
  match d with
  | ⟨0, _⟩ => rfl
  | ⟨1, _⟩ => rfl

end Cert.LibKeepdims

end
-- ==== Proof.Payload.lean ====
/-
  The body's arithmetic at one entry of a block. For a block `x` of 512 rows and the matching block `g` of
  the second operand, the stored value at `(p, q)` is
  `x(p,q) · rsqrt ((∑ₖ x(p,k)²) · 2^(-11) + ε) · g(p,q)`: the row's sum of squares is taken over all 2048
  columns of row `p` of the same block, so each entry depends on its own row only.
-/
import proofs.«176145_j37855841747142_2_alg».proof.Proof.Gen.KernelIdeal.Skeleton
import proofs.«176145_j37855841747142_2_alg».proof.Proof.LibKeepdims

noncomputable section

namespace Cert.RmsNorm

open Idealize.ShloMosaic Idealize.ShloMosaic.ValueIdx Cert.KernelIdeal Cert.KernelIdeal.Gen Cert.LibKeepdims

/-- The stored value of the body at entry `(p, q)` of a block, from the two loaded blocks. -/
theorem pay_apply (x g : Vec Ideal S512x2048 .f32) (p : Fin 512) (q : Fin 2048) :
    k0_pay1 (F := Ideal) x g (ix2 p q)
      = x (ix2 p q)
          * Ideal.rsqrt ((∑ k : Fin 2048, x (ix2 p k) * x (ix2 p k)) * Ideal.ofBits .f32 0x3A000000#32
              + Ideal.ofBits .f32 0x36A7C5AC#32)
          * g (ix2 p q) := by
  unfold k0_pay1
  simp only [shapeCast_self, mulf_apply]
  rw [broadcastTo_a1_ab_apply]
  show x (ix2 p q) * Ideal.rsqrt (shapeCast S512x1 _ _ (ix2 p (0 : Fin 1)) * _ + _) * g (ix2 p q) = _
  rw [shapeCast_a_a1_apply]
  refine congrArg (fun S => x (ix2 p q) * Ideal.rsqrt (S * _ + _) * g (ix2 p q)) ?_
  exact rowSum_apply (mulf x x) _ _ _ p

end Cert.RmsNorm

end
-- ==== Proof.Spec.lean ====
/-
  The function both programs compute, on the flattened `[16384, 2048]` array: entry `(r, d)` is
  `X(r,d) · rsqrt ((∑ₖ X(r,k)²) · 2^(-11) + ε) · Γ(r,d)` — each row is scaled by the reciprocal root of its own
  mean square plus epsilon, then multiplied entry by entry with the second operand.
-/
import Idealize.ShloMosaic.PureOps.Ideal
import Idealize.ShloMosaic.Lib.ValueIdx

noncomputable section

namespace Cert.RmsNorm

open Idealize.ShloMosaic Idealize.ShloMosaic.ValueIdx

/-- The normalised entry at row `r`, column `d`. -/
def normAt (X Γ : (⟨2, ![16384, 2048]⟩ : Shape).Idx → EReal) (r : Fin 16384) (d : Fin 2048) : EReal :=
  X (ix2 r d)
    * Ideal.rsqrt ((∑ k : Fin 2048, X (ix2 r k) * X (ix2 r k)) * Ideal.ofBits .f32 0x3A000000#32
        + Ideal.ofBits .f32 0x36A7C5AC#32)
    * Γ (ix2 r d)

/-- The whole normalised array. -/
def rowNorm (X Γ : (⟨2, ![16384, 2048]⟩ : Shape).Idx → EReal) : (⟨2, ![16384, 2048]⟩ : Shape).Idx → EReal :=
  fun j => normAt X Γ (j 0) (j 1)

theorem rowNorm_ix2 (X Γ : (⟨2, ![16384, 2048]⟩ : Shape).Idx → EReal) (r : Fin 16384) (d : Fin 2048) :
    rowNorm X Γ (ix2 r d) = normAt X Γ r d := rfl

end Cert.RmsNorm

end
-- ==== Proof.Blocks.lean ====
/-
  From blocks to the array. Grid point `t` (of 32) works on rows `512·t … 512·t + 511` of the flattened
  arrays, all 2048 columns: the three windows move together, one block of whole rows per point. A row's
  mean square only needs the row itself, which lies inside the block, so what point `t` writes back is
  block `t` of the one function `rowNorm` of the two flattened arrays; the 32 blocks tile the array.
-/
import proofs.«176145_j37855841747142_2_alg».proof.Proof.Gen.KernelIdeal.Frame
import proofs.«176145_j37855841747142_2_alg».proof.Proof.Payload
import proofs.«176145_j37855841747142_2_alg».proof.Proof.Spec
import Idealize.ShloMosaic.Lib.Pipeline.Value

noncomputable section

namespace Cert.RmsNorm

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The body's stored block, entry by entry, when its two loaded blocks are rows `r0 … r0 + 511` of two
    arrays `X`, `Γ`: the entry `(p, q)` is the normalised entry `(r0 + p, q)` of `X`, `Γ`. -/
theorem block_entry (X Γ : (⟨2, ![16384, 2048]⟩ : Shape).Idx → EReal) (x g : Vec Ideal S512x2048 .f32)
    (r0 : ℕ) (h0 : r0 + 512 ≤ 16384)
    (hx : ∀ (p : Fin 512) (q : Fin 2048), x (ix2 p q) = X (ix2 (⟨r0 + p.val, by omega⟩ : Fin 16384) q))
    (hg : ∀ (p : Fin 512) (q : Fin 2048), g (ix2 p q) = Γ (ix2 (⟨r0 + p.val, by omega⟩ : Fin 16384) q))
    (p : Fin 512) (q : Fin 2048) :
    k0_pay1 (F := Ideal) x g (ix2 p q) = normAt X Γ (⟨r0 + p.val, by omega⟩ : Fin 16384) q := by
  rw [pay_apply, hx p q, hg p q]
  unfold normAt
  simp only [hx]

/-- The printed index maps over the grid: every window's block index at point `t` is `(t, 0)`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The first operand's block at point `t`, entry `(p, q)`, is the flattened first array at `(512·t + p, q)`. -/
theorem iblk0_apply (c : Dev nD) (t : Fin cfg0.N) (ht : t.val * 512 + 512 ≤ 16384) (p : Fin 512) (q : Fin 2048) :
    (iblk m c 0 t : Vec Ideal S512x2048 .f32) (ix2 p q)
      = (V m c main_v0 : S16384x2048.Idx → EReal) (ix2 (⟨t.val * 512 + p.val, by omega⟩ : Fin 16384) q) := by
  obtain ⟨e0, e1, -⟩ := idx_facts t
  unfold iblk
  rw [View.read_apply]
  show V m c main_v0 _ = V m c main_v0 _
  refine congrArg (V m c main_v0) (funext fun a => Fin.ext ?_)
  match a with
  | ⟨0, _⟩ => show win0_0.index t 0 * 512 + 1 * p.val = t.val * 512 + p.val; rw [e0]; omega
  | ⟨1, _⟩ => show win0_0.index t 1 * 2048 + 1 * q.val = q.val; rw [e1]; omega

/-- The second operand's block at point `t`, likewise. -/
theorem iblk1_apply (c : Dev nD) (t : Fin cfg0.N) (ht : t.val * 512 + 512 ≤ 16384) (p : Fin 512) (q : Fin 2048) :
    (iblk m c 1 t : Vec Ideal S512x2048 .f32) (ix2 p q)
      = (V m c main_v1 : S16384x2048.Idx → EReal) (ix2 (⟨t.val * 512 + p.val, by omega⟩ : Fin 16384) q) := by
  obtain ⟨-, -, e0, e1, -⟩ := idx_facts t
  unfold iblk
  rw [View.read_apply]
  show V m c main_v1 _ = V m c main_v1 _
  refine congrArg (V m c main_v1) (funext fun a => Fin.ext ?_)
  match a with
  | ⟨0, _⟩ => show win0_1.index t 0 * 512 + 1 * p.val = t.val * 512 + p.val; rw [e0]; omega
  | ⟨1, _⟩ => show win0_1.index t 1 * 2048 + 1 * q.val = q.val; rw [e1]; omega

/-- What point `t` writes back is block `t` of `rowNorm` of the two flattened arrays. -/
theorem flushed_eq (c : Dev nD) (t : Fin cfg0.N) :
    (dats m 0 c).flushed 2 t
      = ((cfg0.win 2).blk t).view.read (Elt Ideal) (rowNorm (V m c main_v0) (V m c main_v1)) := by
  have hN : cfg0.N = 32 := N_0
  have ht : t.val * 512 + 512 ≤ 16384 := by have := t.isLt; omega
  obtain ⟨-, -, -, -, e0, e1⟩ := idx_facts t
  show (cfg0.win 2).cut (grid0.coords t) ((dats m 0 c).after 2 t) = _
  rw [after0_2]
  unfold out0_2
  rw [View.canon_unit_zero hz]
  simp only [View.ld_unit_zero (S := S512x2048) hz]
  funext j
  obtain ⟨p, q, rfl⟩ : ∃ (p : Fin 512) (q : Fin 2048), j = ix2 p q := ⟨j 0, j 1, eq_ix2 j⟩
  show k0_pay1 (F := Ideal) (iblk m c 0 t) (iblk m c 1 t) (ix2 p q)
      = rowNorm (V m c main_v0) (V m c main_v1) (((cfg0.win 2).blk t).view.emb (ix2 p q))
  have hemb : ((cfg0.win 2).blk t).view.emb (ix2 p q) = ix2 (⟨t.val * 512 + p.val, by omega⟩ : Fin 16384) q := by
    funext a; apply Fin.ext
    match a with
    | ⟨0, _⟩ => show win0_2.index t 0 * 512 + 1 * p.val = t.val * 512 + p.val; rw [e0]; omega
    | ⟨1, _⟩ => show win0_2.index t 1 * 2048 + 1 * q.val = q.val; rw [e1]; omega
  rw [hemb, rowNorm_ix2]
  exact block_entry (V m c main_v0) (V m c main_v1) (iblk m c 0 t) (iblk m c 1 t) (t.val * 512) ht
    (iblk0_apply m c t ht) (iblk1_apply m c t ht) p q

/-- An index of the flattened result is in point `t`'s block iff each coordinate is in the block's range. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v2).slice (win0_2.rect t)).set ↔ _
  rw [View.set_slice_whole, Rect.mem_set_unit]
  exact Iff.rfl

/-- The blocks tile the array: row `r` lies in the block of point `r / 512`. -/
theorem cover (i : S16384x2048.Idx) :
    ∃ t : Fin cfg0.N, (cfg0.win 2).flush t = true ∧ i ∈ ((cfg0.win 2).blk t).view.set := by
  have hN : cfg0.N = 32 := N_0
  have hi0 : (i 0).val < 16384 := (i 0).isLt
  have hi1 : (i 1).val < 2048 := (i 1).isLt
  obtain ⟨t, htv⟩ : ∃ t : Fin cfg0.N, t.val = (i 0).val / 512 := ⟨⟨(i 0).val / 512, by rw [hN]; omega⟩, rfl⟩
  obtain ⟨-, -, -, -, e0, e1⟩ := idx_facts t
  refine ⟨t, flush0_2 t, ?_⟩
  rw [mem_blk]
  intro a
  match a with
  | ⟨0, _⟩ =>
    show win0_2.index t 0 * 512 ≤ (i 0).val ∧ (i 0).val < win0_2.index t 0 * 512 + 512
    rw [e0, htv]; omega
  | ⟨1, _⟩ =>
    show win0_2.index t 1 * 2048 ≤ (i 1).val ∧ (i 1).val < win0_2.index t 1 * 2048 + 2048
    rw [e1]; omega

/-- So the flattened result array ends holding `rowNorm` of the two flattened operands. -/
theorem final (c : Dev nD) :
    (dats m 0 c).arrAt 2 cfg0.N = rowNorm (V m c main_v0) (V m c main_v1) :=
  (dats m 0 c).arrAt_eq_of_cover 2 (rowNorm (V m c main_v0) (V m c main_v1)) (fun t _ => flushed_eq m c t) cover

end Cert.RmsNorm

end
-- ==== Proof.KernelRun.lean ====
/-
  The kernel program's run, read. Before the region the two operands are flattened to `[16384, 2048]`;
  the region leaves `rowNorm` of the flattened operands in the flattened result; after the region that
  array is reshaped to `[4, 4096, 2048]`, which is the program's result.
-/
import proofs.«176145_j37855841747142_2_alg».proof.Proof.Blocks
import Idealize.ShloMosaic.Lib.StableHlo.Run

noncomputable section

namespace Cert.RmsNorm

open Cert.KernelIdeal Cert.KernelIdeal.Gen Idealize.ShloMosaic Idealize.ShloMosaic.TcCoe Idealize.SL.Sem
open Idealize.ShloMosaic.StableHlo
open Idealize.ShloMosaic.Pipeline (Dat)

variable (m : (ℓ : Loc nD τ sig) → Buf (Elt Ideal) ℓ) (ρ : Dev nD → PrngReg)

/-- The region finds the first operand flattened. -/
theorem V_main_v0 (c : Dev nD) :
    (V m c main_v0 : S16384x2048.Idx → EReal)
      = shapeCast S16384x2048 (m ((c : Thread nD τ).loc main_arg0)) shapeCasts_S4x4096x2048_S16384x2048 := by
  show StableHlo.after hostOps0 (fun b => m (c, b)) (Proc.devRef .tc main_v0) = _
  after_results
  rfl

/-- The region finds the second operand flattened. -/
theorem V_main_v1 (c : Dev nD) :
    (V m c main_v1 : S16384x2048.Idx → EReal)
      = shapeCast S16384x2048 (m ((c : Thread nD τ).loc main_arg1)) shapeCasts_S4x4096x2048_S16384x2048 := by
  show StableHlo.after hostOps0 (fun b => m (c, b)) (Proc.devRef .tc main_v1) = _
  after_results
  rfl

/-- The program's result: the flattened result array, reshaped back. -/
theorem tail_eq (c : Dev nD) :
    Pipeline.afterTail₀ cfgs (dats m) 0 (V0 m) [hostOps1] c main_v3
      = shapeCast S4x4096x2048 ((dats m 0 c).arrAt 2 cfg0.N) shapeCasts_S16384x2048_S4x4096x2048 := by
  unfold Pipeline.afterTail₀
  show StableHlo.after hostOps1 _ (Proc.devRef .tc main_v3) = _
  after_results
  exact congrArg (fun A => shapeCast S4x4096x2048 A shapeCasts_S16384x2048_S4x4096x2048)
    (Pipeline.withArrays_arr spec0 launch0.win.arr_inj c _ _ 2)

/-- The kernel program's result as one function of its two operands: flatten both, normalise each row of
    the first and multiply by the second, reshape back. -/
def kernelResult (x g : S4x4096x2048.Idx → EReal) : S4x4096x2048.Idx → EReal :=
  shapeCast S4x4096x2048
    (rowNorm (shapeCast S16384x2048 x shapeCasts_S4x4096x2048_S16384x2048)
      (shapeCast S16384x2048 g shapeCasts_S4x4096x2048_S16384x2048))
    shapeCasts_S16384x2048_S4x4096x2048

/-- Every weakly fair execution of the kernel program ends with its result at `kernelResult` of the operands
    and the operands unchanged. -/
theorem run : θ_run defs (onTc (τ := τ) (main (F := Ideal))) ⟨m, fun _ => 0, ρ⟩ fun r => ∀ c : Dev nD,
      r.2.mem ((c : Thread nD τ).loc main_v3)
        = kernelResult (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      ((h c).2 main_v3 (Pipeline.mem_restRefs_of main_v3 (by decide) (by decide))).trans
        ((tail_eq m c).trans (by rw [final, V_main_v0, V_main_v1]; rfl)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.RmsNorm

end
-- ==== Proof.Scalar.lean ====
/-
  The scalar facts behind the normalisation: what the three float words of the two programs denote as
  extended reals, that a sum of squares of extended reals is never negative, and the one law that joins
  the two programs: for a positive (possibly infinite) mean square `a`, the product `x · a^(-1/2)` and the
  quotient `x / a^(1/2)` are the same extended real, whatever `x` is.
-/
import Idealize.ShloMosaic.PureOps.Ideal

noncomputable section

namespace Cert.RmsNorm

open Idealize.ShloMosaic

/-- The kernel's scale `4.8828125e-4` is exactly `2^(-11) = 1/2048`. -/
theorem ofBits_inv2048 : Ideal.ofBits .f32 0x3A000000#32 = ((1 / 2048 : ℝ) : EReal) := by
  simp [Ideal.ofBits, Ideal.ieee, -EReal.coe_mul]; norm_num

/-- The reference's divisor `2048.0` is the real `2048`. -/
theorem ofBits_2048 : Ideal.ofBits .f32 0x45000000#32 = ((2048 : ℝ) : EReal) := by
  simp [Ideal.ofBits, Ideal.ieee, -EReal.coe_mul]; norm_num

/-- The zero word denotes `0`. -/
theorem ofBits_zero : Ideal.ofBits .f32 0x00000000#32 = 0 := by
  simp [Ideal.ofBits, Ideal.ieee]

/-- The shared epsilon word denotes a positive real (its exact value is never needed: the same word
    stands on both sides). -/
theorem ofBits_eps_pos : ∃ e : ℝ, 0 < e ∧ Ideal.ofBits .f32 0x36A7C5AC#32 = (e : EReal) := by
  refine ⟨_, ?_, by simp [Ideal.ofBits, Ideal.ieee, -EReal.coe_mul]; rfl⟩
  norm_num

/-- A square of an extended real is nonnegative (`(±∞)² = +∞`). -/
theorem mul_self_nonneg (x : EReal) : 0 ≤ x * x := by
  rcases le_total 0 x with h | h
  · exact EReal.mul_nonneg h h
  · have h' : 0 ≤ -x := by simpa using EReal.neg_le_neg_iff.mpr h
    have := EReal.mul_nonneg h' h'
    rwa [neg_mul_neg] at this

/-- So a finite sum of squares is nonnegative. -/
theorem sum_sq_nonneg {ι : Type*} (s : Finset ι) (f : ι → EReal) : 0 ≤ ∑ k ∈ s, f k * f k :=
  Finset.sum_nonneg fun k _ => mul_self_nonneg (f k)

/-- A nonnegative extended real scaled by `1/2048` plus the positive epsilon is positive. -/
theorem meansq_pos (S : EReal) (hS : 0 ≤ S) :
    0 < S * Ideal.ofBits .f32 0x3A000000#32 + Ideal.ofBits .f32 0x36A7C5AC#32 := by
  obtain ⟨e, he, hE⟩ := ofBits_eps_pos
  rw [hE, ofBits_inv2048]
  have h1 : (0 : EReal) ≤ S * ((1 / 2048 : ℝ) : EReal) :=
    EReal.mul_nonneg hS (by exact_mod_cast (by norm_num : (0 : ℝ) ≤ 1 / 2048))
  calc (0 : EReal) < (e : EReal) := by exact_mod_cast he
    _ = 0 + (e : EReal) := (zero_add _).symm
    _ ≤ S * ((1 / 2048 : ℝ) : EReal) + (e : EReal) := add_le_add_left h1 _

/-- The law: for `0 < a` (`a = +∞` allowed), `x · rsqrt a = x / sqrt a` on the extended reals.
    At `a = +∞` both sides are `x · 0`; at a positive real `a` both are `x · (√a)⁻¹`. -/
theorem mul_rsqrt_eq_div_sqrt (x a : EReal) (ha : 0 < a) :
    x * Ideal.rsqrt a = Ideal.div x (Ideal.sqrt a) := by
  induction a using EReal.rec with
  | bot => exact absurd ha (by simp)
  | top =>
    rw [Ideal.rsqrt_top, Ideal.sqrt_top, Ideal.div, if_neg (by simp), EReal.inv_top]
  | coe r =>
    have hr : 0 < r := by exact_mod_cast ha
    have hs : 0 < Real.sqrt r := Real.sqrt_pos.mpr hr
    rw [Ideal.rsqrt_coe, Ideal.sqrt_coe, if_neg (not_lt.mpr hr.le), if_neg hr.ne', if_neg (not_lt.mpr hr.le),
      Ideal.div, if_neg (by exact_mod_cast hs.ne'), EReal.coe_inv]

/-- The reference's mean square is the kernel's: dividing by `2048` is multiplying by `2^(-11)`, at the
    infinities too. -/
theorem div2048_eq_mul (S : EReal) :
    Ideal.div S (Ideal.ofBits .f32 0x45000000#32) = S * Ideal.ofBits .f32 0x3A000000#32 := by
  rw [ofBits_2048, ofBits_inv2048, Ideal.div_coe (by norm_num : (2048 : ℝ) ≠ 0)]

/-- One normalised entry, both ways: the kernel's `x · rsqrt (S · 2^(-11) + ε) · g` is the reference's
    `x / sqrt ((0 + S) / 2048 + ε) · g` whenever `S` is a sum of squares. -/
theorem entry_eq (x g S : EReal) (hS : 0 ≤ S) :
    x * Ideal.rsqrt (S * Ideal.ofBits .f32 0x3A000000#32 + Ideal.ofBits .f32 0x36A7C5AC#32) * g
      = Ideal.div x (Ideal.sqrt (Ideal.div (Ideal.ofBits .f32 0x00000000#32 + S) (Ideal.ofBits .f32 0x45000000#32)
          + Ideal.ofBits .f32 0x36A7C5AC#32)) * g := by
  rw [ofBits_zero, zero_add, div2048_eq_mul, mul_rsqrt_eq_div_sqrt _ _ (meansq_pos S hS)]

end Cert.RmsNorm

end
-- ==== Proof.Reference.lean ====
/-
  The reference at one entry. At `(b, s, d)` it is
  `x(b,s,d) / sqrt ((0 + ∑ₖ x(b,s,k)²) / 2048 + ε) · g(b,s,d)`: the mean square of row `(b, s)` is taken over
  the last axis, kept as a unit axis, and broadcast back along it.
-/
import proofs.«176145_j37855841747142_2_alg».proof.Proof.Gen.ReferenceIdeal.Read
import Idealize.ShloMosaic.Lib.ValueIdx

noncomputable section

namespace Cert.RmsNorm

open Idealize.ShloMosaic Idealize.ShloMosaic.ValueIdx Cert.ReferenceIdeal Cert.ReferenceIdeal.Read

/-- The index the row sum reads for entry `(b, s, ·)` at position `k` is `(b, s, k)`. -/
theorem ref_idx (b : Fin 4) (s : Fin 4096) (d k : Fin 2048) :
    idx_main_v1 (idx_main_v2 (idx_main_v8 (ix3 b s d))) k = ix3 b s k :=
  funext fun a => Fin.ext (by match a with | ⟨0, _⟩ => rfl | ⟨1, _⟩ => rfl | ⟨2, _⟩ => rfl)

/-- The reference's result at entry `(b, s, d)`. -/
theorem ref_apply (x g : (⟨S4x4096x2048, .f32⟩ : BufTy).Contents (Elt Ideal)) (b : Fin 4) (s : Fin 4096) (d : Fin 2048) :
    val_main_v10 (F := Ideal) x g (ix3 b s d)
      = Ideal.div (x (ix3 b s d))
          (Ideal.sqrt (Ideal.div (Ideal.ofBits .f32 0x00000000#32 + ∑ k : Fin 2048, x (ix3 b s k) * x (ix3 b s k))
              (Ideal.ofBits .f32 0x45000000#32) + Ideal.ofBits .f32 0x36A7C5AC#32))
          * g (ix3 b s d) := by
  rw [val_main_v10_apply, val_main_v9_apply, val_main_v8_apply, val_main_v7_apply, val_main_v6_apply,
    val_main_v4_apply, val_main_v5_apply, val_main_cst_1_apply, val_main_v2_apply, val_main_v3_apply,
    val_main_cst_0_apply, val_main_v1_apply, val_main_cst_apply]
  simp only [val_main_v0_apply, ref_idx]
  rfl

end Cert.RmsNorm

end
-- ==== Proof.Bridge.lean ====
/-
  The bridge. Flattening `[4, 4096, 2048]` to `[16384, 2048]` sends `(b, s, d)` to row `4096·b + s`, column
  `d` (the same row-major position), and the final reshape sends it back. So the kernel's result at
  `(b, s, d)` is the normalised entry of row `4096·b + s` of the flattened operands, whose row is
  `x(b, s, ·)`; the reference normalises the same row by dividing by the root of its mean square. The two
  agree by the scalar law of `Scalar.lean`, entry by entry, on all extended reals.
-/
import proofs.«176145_j37855841747142_2_alg».proof.Proof.Scalar
import proofs.«176145_j37855841747142_2_alg».proof.Proof.Spec
import proofs.«176145_j37855841747142_2_alg».proof.Proof.Reference
import Idealize.ShloMosaic.Lib.Pipeline.Value

noncomputable section

namespace Cert.RmsNorm

open Idealize.ShloMosaic Idealize.ShloMosaic.ValueIdx

variable {α : Type}

/-- The flattened array at row `4096·b + s`, column `d`, is the operand at `(b, s, d)`. -/
theorem flat_apply (x : (⟨3, ![4, 4096, 2048]⟩ : Shape).Idx → α)
    (h : (⟨3, ![4, 4096, 2048]⟩ : Shape).ShapeCasts ⟨2, ![16384, 2048]⟩)
    (b : Fin 4) (s : Fin 4096) (d : Fin 2048) (hr : b.val * 4096 + s.val < 16384) :
    shapeCast ⟨2, ![16384, 2048]⟩ x h (ix2 (⟨b.val * 4096 + s.val, hr⟩ : Fin 16384) d) = x (ix3 b s d) :=
  shapeCast_apply x h _ _ (by
    rw [Shape.rowMajor_val_three, Shape.rowMajor_val_two]
    show (b.val * 4096 + s.val) * 2048 + d.val = (b.val * 4096 + s.val) * 2048 + d.val
    rfl)

/-- The array reshaped back, at `(b, s, d)`, is the flattened one at row `4096·b + s`, column `d`. -/
theorem unflat_apply (Y : (⟨2, ![16384, 2048]⟩ : Shape).Idx → α)
    (h : (⟨2, ![16384, 2048]⟩ : Shape).ShapeCasts ⟨3, ![4, 4096, 2048]⟩)
    (b : Fin 4) (s : Fin 4096) (d : Fin 2048) (hr : b.val * 4096 + s.val < 16384) :
    shapeCast ⟨3, ![4, 4096, 2048]⟩ Y h (ix3 b s d) = Y (ix2 (⟨b.val * 4096 + s.val, hr⟩ : Fin 16384) d) :=
  shapeCast_apply Y h _ _ (by
    rw [Shape.rowMajor_val_three, Shape.rowMajor_val_two]
    show (b.val * 4096 + s.val) * 2048 + d.val = (b.val * 4096 + s.val) * 2048 + d.val
    rfl)

/-- THE TWO RESULTS ARE ONE FUNCTION of the operands: flatten, normalise each row, reshape back — against
    the reference's stages. -/
theorem bridge (x g : (⟨Cert.ReferenceIdeal.S4x4096x2048, .f32⟩ : BufTy).Contents (Elt Ideal))
    (h1 : (⟨3, ![4, 4096, 2048]⟩ : Shape).ShapeCasts ⟨2, ![16384, 2048]⟩)
    (h2 : (⟨2, ![16384, 2048]⟩ : Shape).ShapeCasts ⟨3, ![4, 4096, 2048]⟩) :
    shapeCast ⟨3, ![4, 4096, 2048]⟩
        (rowNorm (shapeCast ⟨2, ![16384, 2048]⟩ x h1) (shapeCast ⟨2, ![16384, 2048]⟩ g h1)) h2
      = Cert.ReferenceIdeal.Read.val_main_v10 (F := Ideal) x g := by
  funext i
  obtain ⟨b, s, d, rfl⟩ : ∃ (b : Fin 4) (s : Fin 4096) (d : Fin 2048), i = ix3 b s d := ⟨i 0, i 1, i 2, eq_ix3 i⟩
  have hr : b.val * 4096 + s.val < 16384 := by have := b.isLt; have := s.isLt; omega
  rw [unflat_apply _ h2 b s d hr, rowNorm_ix2, ref_apply]
  unfold normAt
  simp only [flat_apply _ h1 b s _ hr]
  exact entry_eq _ _ _ (sum_sq_nonneg _ _)

end Cert.RmsNorm

end
-- ==== Proof.lean ====
/-
  The certificate of the row-normalising kernel against its reference.

  Kernel: the operands `x, γ : f32[4, 4096, 2048]` are flattened to `[16384, 2048]`; a grid of 32 points
  each takes 512 whole rows and stores `x · rsqrt (∑ x² · 2^(-11) + ε) · γ`, the sum over the row's 2048
  entries; the result is reshaped back. Reference: `x / sqrt (∑ x² / 2048 + ε) · γ` on the unflattened
  arrays. At the exact instance the two results are the same extended reals entry by entry:
  `2^(-11)` is exactly `1/2048`, a sum of squares is never negative, so the mean square plus the positive
  `ε` is positive (possibly `+∞`), and for such `a` the product with `a^(-1/2)` is the quotient by `a^(1/2)`.
  No finiteness of the inputs is needed for this, so the precondition is never opened.

  The three frames are the generated ones (the reference's is its generated run with the result dropped);
  the idealisation rewrote nothing, so `preserves` is `True`.
-/
import proofs.«176145_j37855841747142_2_alg».proof.Defs
import proofs.«176145_j37855841747142_2_alg».proof.Proof.Gen.Kernel
import proofs.«176145_j37855841747142_2_alg».proof.Proof.Gen.Kernel.Skeleton
import proofs.«176145_j37855841747142_2_alg».proof.Proof.Gen.Kernel.Launch
import proofs.«176145_j37855841747142_2_alg».proof.Proof.Gen.Kernel.Points
import proofs.«176145_j37855841747142_2_alg».proof.Proof.Gen.Kernel.Frame
import proofs.«176145_j37855841747142_2_alg».proof.Proof.Gen.KernelIdeal
import proofs.«176145_j37855841747142_2_alg».proof.Proof.Gen.KernelIdeal.Skeleton
import proofs.«176145_j37855841747142_2_alg».proof.Proof.Gen.KernelIdeal.Launch
import proofs.«176145_j37855841747142_2_alg».proof.Proof.Gen.KernelIdeal.Points
import proofs.«176145_j37855841747142_2_alg».proof.Proof.Gen.KernelIdeal.Frame
import proofs.«176145_j37855841747142_2_alg».proof.Proof.Gen.ReferenceIdeal
import proofs.«176145_j37855841747142_2_alg».proof.Proof.Gen.ReferenceIdeal.Run
import proofs.«176145_j37855841747142_2_alg».proof.Proof.Gen.ReferenceIdeal.Read
import proofs.«176145_j37855841747142_2_alg».proof.Proof.Gen.Pre_finite_inputs
import proofs.«176145_j37855841747142_2_alg».proof.Proof.KernelRun
import proofs.«176145_j37855841747142_2_alg».proof.Proof.Bridge
import Idealize.ShloMosaic.Adequacy
import Idealize.ShloMosaic.Init

noncomputable section

namespace Cert.Proof

open Idealize.ShloMosaic Idealize.ShloMosaic.TcCoe Idealize.SL.Sem

/-- The kernel program's run with its result stated as the reference's last stage of the operands: the
    kernel's own function of the operands (`kernelResult`) is that stage, by the bridge. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      fun r => ∀ c : Dev Cert.KernelIdeal.nD,
        r.2.mem ((c.tc : Thread Cert.KernelIdeal.nD Cert.KernelIdeal.τ).loc Cert.KernelIdeal.main_v3)
          = Cert.ReferenceIdeal.Read.val_main_v10 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) :=
  (θ_run Cert.KernelIdeal.defs _ _).mono
    (fun r h c => ⟨(h c).1.trans (Cert.RmsNorm.bridge _ _ _ _), (h c).2⟩)
    (Cert.RmsNorm.run m ρ)

theorem frame_kernel : Cert.frame_Kernel := fun m ρ _ => Cert.Kernel.Gen.frame m ρ

theorem frame_kernelIdeal : Cert.frame_KernelIdeal := fun m ρ _ => Cert.KernelIdeal.Gen.frame m ρ

/-- The reference's frame is its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs, run from memories agreeing on the operands, end with the reference's last stage of
    those operands as their result. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
